-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64x16 : Shape := ⟨2, ![64, 16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x64 : S_.BroadcastsInDim S128x64 (![] : Fin 0 → Fin S128x64.rank)
  reducesTo_S128x64_S_d0_1 : S128x64.ReducesTo [0, 1] S_
  bcast_S_S64x16 : S_.BroadcastsInDim S64x16 (![] : Fin 0 → Fin S64x16.rank)
  reducesTo_S64x16_S_d0_1 : S64x16.ReducesTo [0, 1] S_

variable [Facts]

def fn_part1 {F : FTy → Type} [FloatOps F] (main_arg6 : FVec F S64x16 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64x16 .f32 := Host.absf main_arg6
  let main_cst_6 : FVec F S_ .f32 := constant S_ .f32 0x7F800000#32
  let main_v20 : FVec F S64x16 .f32 := broadcastInDim S64x16 ![] bcast_S_S64x16 main_cst_6
  let main_v21 : IVec S64x16 1 := cmpf .olt main_v19 main_v20
  let main_c_7 : IVec S_ 1 := constantI S_ 1 1#1
  let main_v22 : IVec S_ 1 := (fun x v => Host.reduce IntOp.andi x v reducesTo_S64x16_S_d0_1 h_S_) main_v21 main_c_7
  let main_v23 : IVec S_ 1 := andi main_v18 main_v22
  main_v23

def fn {F : FTy → Type} [FloatOps F] (main_arg0 : FVec F S100000x128 .f32) (main_arg1 : IVec S2x1600000 32) (main_arg2 : IVec S2x1600000 32) (main_arg3 : FVec F S1600000 .f32) (main_arg4 : FVec F S1600000 .f32) (main_arg5 : FVec F S128x64 .f32) (main_arg6 : FVec F S64x16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S1600000 .f32 := Host.absf main_arg4
  let main_cst_2 : FVec F S_ .f32 := constant S_ .f32 0x7F800000#32
  let main_v10 : FVec F S1600000 .f32 := broadcastInDim S1600000 ![] bcast_S_S1600000 main_cst_2
  let main_v11 : IVec S1600000 1 := cmpf .olt main_v9 main_v10
  let main_c_3 : IVec S_ 1 := constantI S_ 1 1#1
  let main_v12 : IVec S_ 1 := (fun x v => Host.reduce IntOp.andi x v reducesTo_S1600000_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64x16 : Shape := ⟨2, ![64, 16]⟩
abbrev S100000x64 : Shape := ⟨2, ![100000, 64]⟩
abbrev S10000x128 : Shape := ⟨2, ![10000, 128]⟩
abbrev S10000x64 : Shape := ⟨2, ![10000, 64]⟩
abbrev S1x1600000 : Shape := ⟨2, ![1, 1600000]⟩
abbrev S_ : Shape := ⟨0, ![]⟩
abbrev S1600000x1 : Shape := ⟨2, ![1600000, 1]⟩
abbrev S1600000x64 : Shape := ⟨2, ![1600000, 64]⟩
abbrev S100000x16 : Shape := ⟨2, ![100000, 16]⟩
abbrev S10000x16 : Shape := ⟨2, ![10000, 16]⟩
abbrev S1600000x16 : Shape := ⟨2, ![1600000, 16]⟩

abbrev nBuf : Space → Nat
  | .hbm => 49
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S2x1600000, .i32⟩
  | .hbm, ⟨3, _⟩ => ⟨S1600000, .f32⟩
  | .hbm, ⟨4, _⟩ => ⟨S1600000, .f32⟩
  | .hbm, ⟨5, _⟩ => ⟨S128x64, .f32⟩
  | .hbm, ⟨6, _⟩ => ⟨S64x16, .f32⟩
  | .hbm, ⟨7, _⟩ => ⟨S100000x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S1600000x1, .f32⟩
  | .hbm, ⟨22, _⟩ => ⟨S1600000x64, .f32⟩
  | .hbm, ⟨23, _⟩ => ⟨S1600000x64, .f32⟩
  | .hbm, ⟨24, _⟩ => ⟨S_, .f32⟩
  | .hbm, ⟨25, _⟩ => ⟨S100000x64, .f32⟩
  | .hbm, ⟨26, _⟩ => ⟨S1600000x1, .i32⟩
  | .hbm, ⟨27, _⟩ => ⟨S100000x64, .f32⟩
  | .hbm, ⟨28, _⟩ => ⟨S100000x16, .f32⟩
  | .hbm, ⟨29, _⟩ => ⟨S1x1600000, .i32⟩
  | .hbm, ⟨30, _⟩ => ⟨S1600000, .i32⟩
  | .hbm, ⟨31, _⟩ => ⟨S1x1600000, .i32⟩
  | .hbm, ⟨32, _⟩ => ⟨S1600000, .i32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x16, .f32⟩
  | .hbm, ⟨42, _⟩ => ⟨S1600000x1, .f32⟩
  | .hbm, ⟨43, _⟩ => ⟨S1600000x16, .f32⟩
  | .hbm, ⟨44, _⟩ => ⟨S1600000x16, .f32⟩
  | .hbm, ⟨45, _⟩ => ⟨S_, .f32⟩
  | .hbm, ⟨46, _⟩ => ⟨S100000x16, .f32⟩
  | .hbm, ⟨47, _⟩ => ⟨S1600000x1, .i32⟩
  | .hbm, ⟨48, _⟩ => ⟨S100000x16, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64x16, .f32⟩
  | .local _ .vmem, ⟨8, _⟩ => ⟨S10000x16, .f32⟩
  | .local _ .vmem, ⟨9, _⟩ => ⟨S10000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_1 : Ref sig .tc := ⟨.hbm, 33, rfl⟩
abbrev main_v23 : Ref sig .tc := ⟨.hbm, 34, rfl⟩
abbrev main_v24 : Ref sig .tc := ⟨.hbm, 35, rfl⟩
abbrev main_c_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S10000x64_S10000x64 : S10000x64.ShapeCasts S10000x64
  inb_S64x16_S64x16_0_0 : ∀ a, (![0, 0] : Fin 2 → Nat) a + S64x16.size a ≤ S64x16.size a
  h_S64x16 : 0 < S64x16.numel
  inb_S10000x16_S10000x16_0_0 : ∀ a, (![0, 0] : Fin 2 → Nat) a + S10000x16.size a ≤ S10000x16.size a
  h_S10000x16 : 0 < S10000x16.numel
  bcast_S1600000x1_S1600000x16_0_1 : S1600000x1.BroadcastsInDim S1600000x16 (![0, 1] : Fin 2 → Fin S1600000x16.rank)
  bcast_S_S100000x16 : S_.BroadcastsInDim S100000x16 (![] : Fin 0 → Fin S100000x16.rank)
  dot_S10000x128_S128x64_S10000x64_1_0_0_1_n_n_wf : DotDims.WF S10000x128 S128x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x16_S10000x16_1_0_0_1_n_n_wf : DotDims.WF S10000x64 S64x16 S10000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x16.size a ≤ S64x16.size a
  hwx1_1 : ∀ i : grid1.Coords, EltTy.bits .f32 = 32 ∨ (Rect.block (s := S64x16) S64x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x16.size a ≤ S100000x16.size a
  hwx1_2 : ∀ i : grid1.Coords, EltTy.bits .f32 = 32 ∨ (Rect.block (s := S100000x16) S10000x16.size (cc1_transform_2 i) (hinb1_2 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S64x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S10000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64x16 : Shape := ⟨2, ![64, 16]⟩
abbrev S100000x64 : Shape := ⟨2, ![100000, 64]⟩
abbrev S1x1600000 : Shape := ⟨2, ![1, 1600000]⟩
abbrev S_ : Shape := ⟨0, ![]⟩
abbrev S1600000x1 : Shape := ⟨2, ![1600000, 1]⟩
abbrev S1600000x64 : Shape := ⟨2, ![1600000, 64]⟩
abbrev S100000x16 : Shape := ⟨2, ![100000, 16]⟩
abbrev S1600000x16 : Shape := ⟨2, ![1600000, 16]⟩

abbrev nBuf : Space → Nat
  | .hbm => 52
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S2x1600000, .i32⟩
  | .hbm, ⟨3, _⟩ => ⟨S1600000, .f32⟩
  | .hbm, ⟨4, _⟩ => ⟨S1600000, .f32⟩
  | .hbm, ⟨5, _⟩ => ⟨S128x64, .f32⟩
  | .hbm, ⟨6, _⟩ => ⟨S64x16, .f32⟩
  | .hbm, ⟨7, _⟩ => ⟨S100000x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S1600000x1, .f32⟩
  | .hbm, ⟨22, _⟩ => ⟨S1600000x64, .f32⟩
  | .hbm, ⟨23, _⟩ => ⟨S1600000x64, .f32⟩
  | .hbm, ⟨24, _⟩ => ⟨S_, .f32⟩
  | .hbm, ⟨25, _⟩ => ⟨S100000x64, .f32⟩
  | .hbm, ⟨26, _⟩ => ⟨S1600000x1, .i32⟩
  | .hbm, ⟨27, _⟩ => ⟨S100000x64, .f32⟩
  | .hbm, ⟨28, _⟩ => ⟨S_, .f32⟩
  | .hbm, ⟨29, _⟩ => ⟨S100000x64, .f32⟩
  | .hbm, ⟨30, _⟩ => ⟨S100000x64, .f32⟩
  | .hbm, ⟨31, _⟩ => ⟨S100000x16, .f32⟩
  | .hbm, ⟨32, _⟩ => ⟨S1x1600000, .i32⟩
  | .hbm, ⟨33, _⟩ => ⟨S1600000, .i32⟩
  | .hbm, ⟨34, _⟩ => ⟨S1x1600000, .i32⟩
  | .hbm, ⟨35, _⟩ => ⟨S1600000, .i32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x16, .f32⟩
  | .hbm, ⟨45, _⟩ => ⟨S1600000x1, .f32⟩
  | .hbm, ⟨46, _⟩ => ⟨S1600000x16, .f32⟩
  | .hbm, ⟨47, _⟩ => ⟨S1600000x16, .f32⟩
  | .hbm, ⟨48, _⟩ => ⟨S_, .f32⟩
  | .hbm, ⟨49, _⟩ => ⟨S100000x16, .f32⟩
  | .hbm, ⟨50, _⟩ => ⟨S1600000x1, .i32⟩
  | .hbm, ⟨51, _⟩ => ⟨S100000x16, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_cst : Ref sig .tc := ⟨.hbm, 28, rfl⟩
abbrev main_call0_v0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_1 : Ref sig .tc := ⟨.hbm, 36, rfl⟩
abbrev main_v24 : Ref sig .tc := ⟨.hbm, 37, rfl⟩
abbrev main_v25 : Ref sig .tc := ⟨.hbm, 38, rfl⟩
abbrev main_c_2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S1600000x1_S1600000x16_0_1 : S1600000x1.BroadcastsInDim S1600000x16 (![0, 1] : Fin 2 → Fin S1600000x16.rank)
  bcast_S_S100000x16 : S_.BroadcastsInDim S100000x16 (![] : Fin 0 → Fin S100000x16.rank)
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x16_S100000x16_1_0_0_1_n_n_wf : DotDims.WF S100000x64 S64x16 S100000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf

class Facts : Prop extends Facts₀ where

variable [Facts]
-- ==== Proof.LibPlainMatmul.lean ====
/-
  A matrix product with plain dimension numbers, read at an entry, at the exact reading of floats as extended reals.

  `tpu.matmul` of an m×k by a k×n matrix (contracting the left operand's axis 1 with the right operand's axis 0, no
  batch axes) accumulated into the zero splat is, at entry (a, b), the sum over c of A(a, c)·B(c, b): the accumulator
  contributes `0 + ·` and nothing else, so the equation holds at the infinities too. Beside it, the one float word a
  bias row of ones needs: the f32 pattern of 1.0 reads as the number 1.
-/
import Idealize.ShloMosaic.Lib.StackMember
import Idealize.ShloMosaic.PureOps.IdealRules

noncomputable section

open scoped BigOperators

namespace Idealize.ShloMosaic.PlainMatmul

open Idealize.ShloMosaic Idealize.ShloMosaic.ValueIdx

/-- The product of an m×k by a k×n matrix accumulated into the zero splat, at entry (a, b), is the sum over the
    contracted coordinate c of A(a, c)·B(c, b). -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  rw [matmul_zero_eq_dotGeneral]
  exact StackMember.dotGeneral_plain_apply prec A B a b

/-- The f32 word of 1.0 denotes the number 1. -/
theorem ofBits_one_f32 : Ideal.ofBits .f32 0x3F800000#32 = 1 :=
  IdealRules.sign_bit.ideal_onePat .f32

end Idealize.ShloMosaic.PlainMatmul

end
-- ==== Proof.LibRowBlockProduct.lean ====
/-
  A block of rows of a matrix product, at the exact reading of floats as extended reals.

  Let X be an M×K matrix, W a K×N matrix, and let xb be a B×K matrix whose row p is row r of X. Then row p of the
  product xb·W, accumulated into the zero splat as a kernel's matrix unit does, is row r of the whole product X·W as
  the host's `dot_general` computes it: both are the sum over the contracted coordinate c of X(r, c)·W(c, b). The
  element formats of the operands play no part (a change of float format is the identity on extended reals), so the
  block may carry narrower formats than the whole matrices.
-/
import proofs.«110216_j90993177133180_2_alg».proof.Proof.LibPlainMatmul

noncomputable section

open scoped BigOperators

namespace Idealize.ShloMosaic.RowBlockProduct

open Idealize.ShloMosaic Idealize.ShloMosaic.ValueIdx

/-- Row `p` of `xb·wb` into the zero splat is row `r` of `X·W`, when row `p` of `xb` is row `r` of `X` and
    column `b` of `wb` is column `b` of `W`. -/
theorem matmul_rows_eq_dotGeneral {M K N B : Nat} {φ₁ φ₂ ψ₁ ψ₂ : FTy} (prec prec' : Option ContractPrecision)
    (X : FVec Ideal ⟨2, ![M, K]⟩ ψ₁) (W : FVec Ideal ⟨2, ![K, N]⟩ ψ₂)
    (xb : FVec Ideal ⟨2, ![B, K]⟩ φ₁) (wb : FVec Ideal ⟨2, ![K, N]⟩ φ₂)
    (p : Fin B) (r : Fin M) (b : Fin N)
    (hx : ∀ c : Fin K, (xb (ix2 p c) : EReal) = X (ix2 r c))
    (hw : ∀ c : Fin K, (wb (ix2 c b) : EReal) = W (ix2 c b)) :
    (matmul (DotDims.plain B K N) prec xb wb (constant ⟨2, ![B, N]⟩ .f32 0x00000000#32) (ix2 p b) : EReal)
      = Host.dotGeneral (DotDims.plain M K N) prec' X W (ix2 r b) := by
  rw [PlainMatmul.matmul_plain_zero_apply, StackMember.dotGeneral_plain_apply]
  exact Finset.sum_congr rfl fun c _ => by rw [hx c, hw c]

end Idealize.ShloMosaic.RowBlockProduct

end
-- ==== Proof.FirstLayer.lean ====
/-
  The first pallas_call, read as a value. Its grid has ten points; point t stages rows 10000·t … 10000·t + 9999 of the
  [100000, 128] input array (all 128 columns), the whole [128, 64] weight matrix, and writes back rows 10000·t … of the
  [100000, 64] result. The body multiplies the staged row block by the weights into a zero accumulator (its casts to a
  narrower float format are the identity on extended reals). So block t of the result is block t of the ONE product
  `X · W` of the whole arrays, entry (r, q) being the sum over k of X(r, k) · W(k, q); the ten blocks tile the result,
  which therefore ends holding the whole product — the host's `dot_general` of the two arrays as the region finds them.
-/
import proofs.«110216_j90993177133180_2_alg».proof.Proof.Gen.KernelIdeal.Frame
import proofs.«110216_j90993177133180_2_alg».proof.Proof.LibRowBlockProduct
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.FirstLayer

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The product of the whole [100000, 128] array with the [128, 64] weights. -/
abbrev product (X : FVec Ideal S100000x128 .f32) (W : FVec Ideal S128x64 .f32) : FVec Ideal S100000x64 .f32 :=
  Host.dotGeneral (F := Ideal) (DotDims.plain 100000 128 64) none X W

/-- The block indices at point `t`: the row-block windows are at block (t, 0), the weights at block (0, 0). -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, q) of the body's stored value, when row p of the staged block is row r of `X` and the staged weights
    are `W`: entry (r, q) of the whole product. -/
theorem payload_entry (x0 : Vec Ideal S10000x128 .f32) (x1 : Vec Ideal S128x64 .f32)
    (X : FVec Ideal S100000x128 .f32) (W : FVec Ideal S128x64 .f32)
    (p : Fin 10000) (q : Fin 64) (r : Fin 100000)
    (hx : ∀ k : Fin 128, x0 (ix2 p k) = X (ix2 r k)) (hw : ∀ k : Fin 128, x1 (ix2 k q) = W (ix2 k q)) :
    k0_pay1 x0 x1 (ix2 p q) = product X W (ix2 r q) := by
  unfold k0_pay1
  exact RowBlockProduct.matmul_rows_eq_dotGeneral (φ₁ := .bf16) (φ₂ := .bf16) none none X W
    (truncf .bf16 x0 bitsLt_bf16_f32) (truncf .bf16 x1 bitsLt_bf16_f32) p r q hx hw

/-- What point `t` writes back is block `t` of the whole product of the arrays as the region finds them. -/
theorem flushed_eq (c : Dev nD) (t : Fin cfg0.N) :
    (dat0 V c).flushed 2 t = ((cfg0.win 2).blk t).view.read (Elt Ideal) (product (V c main_arg0) (V c main_arg5)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x64) hz]
  obtain ⟨e0, e1, e2, e3, e4, e5⟩ := index_facts t
  have ht : t.val < 10 := Nat.lt_of_lt_of_eq (show t.val < grid0.N from t.isLt) N_0
  funext j
  change S10000x64.Idx at j
  obtain ⟨p, q, rfl⟩ : ∃ (p : Fin 10000) (q : Fin 64), j = ix2 p q := ⟨j 0, j 1, eq_ix2 j⟩
  have hp : p.val < 10000 := p.isLt
  show k0_pay1 (iblk0 V c 0 t) (iblk0 V c 1 t) (ix2 p q) = product (V c main_arg0) (V c main_arg5) (((cfg0.win 2).blk t).view.emb (ix2 p q))
  have hemb : ((cfg0.win 2).blk t).view.emb (ix2 p q) = ix2 (⟨t.val * 10000 + p.val, by omega⟩ : Fin 100000) q := by
    funext a; apply Fin.ext
    match a with
    | ⟨0, _⟩ => show win0_2.index t (0 : Fin 2) * 10000 + 1 * p.val = t.val * 10000 + p.val; rw [e4]; omega
    | ⟨1, _⟩ => show win0_2.index t (1 : Fin 2) * 64 + 1 * q.val = q.val; rw [e5]; omega
  rw [hemb]
  refine payload_entry _ _ _ _ p q _ (fun k => ?_) (fun k => ?_)
  · show V c main_arg0 (((cfg0.win 0).blk t).view.emb (ix2 p k)) = V c main_arg0 _
    refine congrArg (V c main_arg0) ?_
    funext a; apply Fin.ext
    match a with
    | ⟨0, _⟩ => show win0_0.index t (0 : Fin 2) * 10000 + 1 * p.val = t.val * 10000 + p.val; rw [e0]; omega
    | ⟨1, _⟩ => show win0_0.index t (1 : Fin 2) * 128 + 1 * k.val = k.val; rw [e1]; omega
  · show V c main_arg5 (((cfg0.win 1).blk t).view.emb (ix2 k q)) = V c main_arg5 _
    refine congrArg (V c main_arg5) ?_
    funext a; apply Fin.ext
    match a with
    | ⟨0, _⟩ => show win0_1.index t (0 : Fin 2) * 128 + 1 * k.val = k.val; rw [e2]; omega
    | ⟨1, _⟩ => show win0_1.index t (1 : Fin 2) * 64 + 1 * q.val = q.val; rw [e3]; omega

/-- An index of the result array is in point `t`'s block iff each coordinate is in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v0).slice (win0_2.rect t)).set ↔ _
  rw [View.set_slice_whole, Rect.mem_set_unit]
  exact Iff.rfl

/-- Row r of the result lies in the block of point r / 10000, and every point writes its block back. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  obtain ⟨t, htv⟩ : ∃ t : Fin cfg0.N, t.val = (i 0).val / 10000 := ⟨⟨(i 0).val / 10000, by rw [hN]; omega⟩, rfl⟩
  obtain ⟨-, -, -, -, e4, e5⟩ := index_facts t
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; rw [e4]; omega
  | ⟨1, _⟩ => show win0_2.index t (1 : Fin 2) * 64 ≤ (i 1).val ∧ (i 1).val < win0_2.index t (1 : Fin 2) * 64 + 64; rw [e5]; omega

/-- The result array after the region: the whole product of the two arrays as the region finds them. -/
theorem final (c : Dev nD) : (dat0 V c).arrAt 2 cfg0.N = product (V c main_arg0) (V c main_arg5) :=
  (dat0 V c).arrAt_eq_of_cover 2 _ (fun t _ => flushed_eq V c t) cover

end Cert.KernelIdeal.FirstLayer

end
-- ==== Proof.Network.lean ====
/-
  The two-layer graph convolution as ONE function of the seven argument arrays, over the extended reals or any other
  reading of floats.

  A layer takes node features h : [100000, C], an edge list ei : [2, 1600000] (row 0 the source node of each edge,
  row 1 its destination) and edge weights w : [1600000]. It gathers row src(e) of h for every edge e — a negative
  source index is first wrapped by +100000, and the gather clamps —, scales that row by w(e), and adds the scaled rows
  into a zero [100000, C] array at their destination rows. The network is
      out = layer₁₆( max(layer₆₄(x · W1, ei1, w1), 0) · W2, ei2, w2 ),
  the two matrix products being whole-array products [100000, 128]·[128, 64] and [100000, 64]·[64, 16].
-/
import proofs.«110216_j90993177133180_2_alg».proof.Proof.Gen.KernelIdeal

noncomputable section

namespace Cert.KernelIdeal.Network

open Idealize.ShloMosaic Cert.KernelIdeal Cert.KernelIdeal.Gen

variable {F : FTy → Type} [FloatOps F]

/-- Row 0 of the edge list, a negative entry wrapped by +100000, as a column of start indices. -/
def sources (ei : (⟨S2x1600000, .i32⟩ : BufTy).Contents (Elt F)) : (⟨S1600000x1, .i32⟩ : BufTy).Contents (Elt F) :=
  broadcastInDim S1600000x1 ![0] bcast_S1600000_S1600000x1_0 (select (cmpi .slt (shapeCast _ (extractStridedSlice S1x1600000 ![0, 0] ei slices_S2x1600000_S1x1600000_0_0) shapeCasts_S1x1600000_S1600000) (broadcastInDim S1600000 ![] bcast_S_S1600000 (constantI S_ 32 0#32))) (addi (shapeCast _ (extractStridedSlice S1x1600000 ![0, 0] ei slices_S2x1600000_S1x1600000_0_0) shapeCasts_S1x1600000_S1600000) (broadcastInDim S1600000 ![] bcast_S_S1600000 (constantI S_ 32 100000#32))) (shapeCast _ (extractStridedSlice S1x1600000 ![0, 0] ei slices_S2x1600000_S1x1600000_0_0) shapeCasts_S1x1600000_S1600000))

/-- Row 1 of the edge list as a column of destination rows. -/
def targets (ei : (⟨S2x1600000, .i32⟩ : BufTy).Contents (Elt F)) : (⟨S1600000x1, .i32⟩ : BufTy).Contents (Elt F) :=
  broadcastInDim S1600000x1 ![0] bcast_S1600000_S1600000x1_0 (shapeCast _ (extractStridedSlice S1x1600000 ![1, 0] ei slices_S2x1600000_S1x1600000_1_0) shapeCasts_S1x1600000_S1600000)

/-- One layer's aggregation at 64 features: the weighted source rows summed at their destinations. -/
def aggregate64 (h : (⟨S100000x64, .f32⟩ : BufTy).Contents (Elt F)) (ei : (⟨S2x1600000, .i32⟩ : BufTy).Contents (Elt F))
    (w : (⟨S1600000, .f32⟩ : BufTy).Contents (Elt F)) : (⟨S100000x64, .f32⟩ : BufTy).Contents (Elt F) :=
  Host.scatterAdd scatter_S100000x64_S1600000x1_S1600000x64_1_0_0_1 (broadcastInDim S100000x64 ![] bcast_S_S100000x64 (constant S_ .f32 0x00000000#32)) (targets ei) (mulf (Host.gather gather_S100000x64_S1600000x1_S1600000x64_1_0_n_n_0_1_164 h (sources ei)) (broadcastInDim S1600000x64 ![0, 1] bcast_S1600000x1_S1600000x64_0_1 (broadcastInDim S1600000x1 ![0] bcast_S1600000_S1600000x1_0 w)))

/-- One layer's aggregation at 16 features. -/
def aggregate16 (h : (⟨S100000x16, .f32⟩ : BufTy).Contents (Elt F)) (ei : (⟨S2x1600000, .i32⟩ : BufTy).Contents (Elt F))
    (w : (⟨S1600000, .f32⟩ : BufTy).Contents (Elt F)) : (⟨S100000x16, .f32⟩ : BufTy).Contents (Elt F) :=
  Host.scatterAdd scatter_S100000x16_S1600000x1_S1600000x16_1_0_0_1 (broadcastInDim S100000x16 ![] bcast_S_S100000x16 (constant S_ .f32 0x00000000#32)) (targets ei) (mulf (Host.gather gather_S100000x16_S1600000x1_S1600000x16_1_0_n_n_0_1_116 h (sources ei)) (broadcastInDim S1600000x16 ![0, 1] bcast_S1600000x1_S1600000x16_0_1 (broadcastInDim S1600000x1 ![0] bcast_S1600000_S1600000x1_0 w)))

/-- The maximum with zero, entry by entry. -/
def relu (a : (⟨S100000x64, .f32⟩ : BufTy).Contents (Elt F)) : (⟨S100000x64, .f32⟩ : BufTy).Contents (Elt F) :=
  maximumf a (broadcastInDim S100000x64 ![] bcast_S_S100000x64 (constant S_ .f32 0x00000000#32))

/-- The hidden features: the first layer's aggregation of `x · W1`. -/
def hidden (x : (⟨S100000x128, .f32⟩ : BufTy).Contents (Elt F)) (ei1 : (⟨S2x1600000, .i32⟩ : BufTy).Contents (Elt F))
    (w1 : (⟨S1600000, .f32⟩ : BufTy).Contents (Elt F)) (W1 : (⟨S128x64, .f32⟩ : BufTy).Contents (Elt F)) :
    (⟨S100000x64, .f32⟩ : BufTy).Contents (Elt F) :=
  aggregate64 (Host.dotGeneral (DotDims.plain 100000 128 64) none x W1) ei1 w1

/-- The network's output as one function of the seven arguments. -/
def network (x : (⟨S100000x128, .f32⟩ : BufTy).Contents (Elt F)) (ei1 ei2 : (⟨S2x1600000, .i32⟩ : BufTy).Contents (Elt F))
    (w1 w2 : (⟨S1600000, .f32⟩ : BufTy).Contents (Elt F)) (W1 : (⟨S128x64, .f32⟩ : BufTy).Contents (Elt F))
    (W2 : (⟨S64x16, .f32⟩ : BufTy).Contents (Elt F)) : (⟨S100000x16, .f32⟩ : BufTy).Contents (Elt F) :=
  aggregate16 (Host.dotGeneral (DotDims.plain 100000 64 16) none (relu (hidden x ei1 w1 W1)) W2) ei2 w2

end Cert.KernelIdeal.Network

end
-- ==== Proof.SecondLayer.lean ====
/-
  The second pallas_call, read as a value. Its grid has ten points; point t stages rows 10000·t … 10000·t + 9999 of the
  [100000, 64] array the first layer's aggregation left, the whole [64, 16] weight matrix, and writes back the same rows
  of the [100000, 16] result. The body takes the maximum of the staged rows with zero, entry by entry, and multiplies
  by the weights into a zero accumulator (the same-shape cast and the casts to a narrower float format are the
  identity). The maximum with zero commutes with taking a block of rows, so block t of the result is block t of the ONE
  product `max(A, 0) · W` of the whole arrays, and the ten blocks tile the result.
-/
import proofs.«110216_j90993177133180_2_alg».proof.Proof.Gen.KernelIdeal.Frame
import proofs.«110216_j90993177133180_2_alg».proof.Proof.LibRowBlockProduct
import proofs.«110216_j90993177133180_2_alg».proof.Proof.Network
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.SecondLayer

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The product of a whole [100000, 64] array with the [64, 16] weights. -/
abbrev product (A : FVec Ideal S100000x64 .f32) (W : FVec Ideal S64x16 .f32) : FVec Ideal S100000x16 .f32 :=
  Host.dotGeneral (F := Ideal) (DotDims.plain 100000 64 16) none A W

/-- The block indices at point `t`: the row-block windows are at block (t, 0), the weights at block (0, 0). -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Entry (p, q) of the body's stored value, when row p of the staged block is row r of `A` and the staged weights
    are `W`: entry (r, q) of the product of `max(A, 0)` with `W`. -/
theorem payload_entry (x0 : Vec Ideal S10000x64 .f32) (x1 : Vec Ideal S64x16 .f32)
    (A : FVec Ideal S100000x64 .f32) (W : FVec Ideal S64x16 .f32)
    (p : Fin 10000) (q : Fin 16) (r : Fin 100000)
    (hx : ∀ k : Fin 64, x0 (ix2 p k) = A (ix2 r k)) (hw : ∀ k : Fin 64, x1 (ix2 k q) = W (ix2 k q)) :
    k1_pay1 x0 x1 (ix2 p q) = product (Network.relu (F := Ideal) A) W (ix2 r q) := by
  unfold k1_pay1
  refine RowBlockProduct.matmul_rows_eq_dotGeneral (φ₁ := .bf16) (φ₂ := .bf16) (ψ₁ := .f32) (ψ₂ := .f32) none none (Network.relu (F := Ideal) A) W
    (truncf .bf16 (maximumf (shapeCast S10000x64 x0 shapeCasts_S10000x64_S10000x64)
      (broadcast S10000x64 (Scalar.ofBits (F := Ideal) .f32 0x00000000#32))) bitsLt_bf16_f32)
    (truncf .bf16 x1 bitsLt_bf16_f32) p r q (fun k => ?_) hw
  have h1 : shapeCast S10000x64 x0 shapeCasts_S10000x64_S10000x64 (ix2 p k) = A (ix2 r k) := by
    rw [shapeCast_self]; exact hx k
  exact congrArg₂ max h1 rfl

/-- What point `t` writes back is block `t` of the whole product `max(A, 0) · W` of the arrays as the region finds them. -/
theorem flushed_eq (c : Dev nD) (t : Fin cfg1.N) :
    (dat1 V c).flushed 2 t = ((cfg1.win 2).blk t).view.read (Elt Ideal) (product (Network.relu (F := Ideal) (V c main_v17)) (V c main_arg6)) := by
  show (cfg1.win 2).cut (grid1.coords t) ((dat1 V c).after 2 t) = _
  rw [after1_2]
  unfold out1_2
  rw [View.canon_unit_zero hz]
  simp only [View.ld_unit_zero (S := S10000x64) hz, View.ld_unit_zero (S := S64x16) hz]
  obtain ⟨e0, e1, e2, e3, e4, e5⟩ := index_facts t
  have ht : t.val < 10 := Nat.lt_of_lt_of_eq (show t.val < grid1.N from t.isLt) N_1
  funext j
  change S10000x16.Idx at j
  obtain ⟨p, q, rfl⟩ : ∃ (p : Fin 10000) (q : Fin 16), j = ix2 p q := ⟨j 0, j 1, eq_ix2 j⟩
  have hp : p.val < 10000 := p.isLt
  show k1_pay1 (iblk1 V c 0 t) (iblk1 V c 1 t) (ix2 p q) = product (Network.relu (F := Ideal) (V c main_v17)) (V c main_arg6) (((cfg1.win 2).blk t).view.emb (ix2 p q))
  have hemb : ((cfg1.win 2).blk t).view.emb (ix2 p q) = ix2 (⟨t.val * 10000 + p.val, by omega⟩ : Fin 100000) q := by
    funext a; apply Fin.ext
    match a with
    | ⟨0, _⟩ => show win1_2.index t (0 : Fin 2) * 10000 + 1 * p.val = t.val * 10000 + p.val; rw [e4]; omega
    | ⟨1, _⟩ => show win1_2.index t (1 : Fin 2) * 16 + 1 * q.val = q.val; rw [e5]; omega
  rw [hemb]
  refine payload_entry _ _ _ _ p q _ (fun k => ?_) (fun k => ?_)
  · show V c main_v17 (((cfg1.win 0).blk t).view.emb (ix2 p k)) = V c main_v17 _
    refine congrArg (V c main_v17) ?_
    funext a; apply Fin.ext
    match a with
    | ⟨0, _⟩ => show win1_0.index t (0 : Fin 2) * 10000 + 1 * p.val = t.val * 10000 + p.val; rw [e0]; omega
    | ⟨1, _⟩ => show win1_0.index t (1 : Fin 2) * 64 + 1 * k.val = k.val; rw [e1]; omega
  · show V c main_arg6 (((cfg1.win 1).blk t).view.emb (ix2 k q)) = V c main_arg6 _
    refine congrArg (V c main_arg6) ?_
    funext a; apply Fin.ext
    match a with
    | ⟨0, _⟩ => show win1_1.index t (0 : Fin 2) * 64 + 1 * k.val = k.val; rw [e2]; omega
    | ⟨1, _⟩ => show win1_1.index t (1 : Fin 2) * 16 + 1 * q.val = q.val; rw [e3]; omega

/-- An index of the result array is in point `t`'s block iff each coordinate is in the block's range on its axis. -/
theorem mem_blk (t : Fin cfg1.N) (i : S100000x16.Idx) :
    i ∈ ((cfg1.win 2).blk t).view.set ↔ ∀ a : Fin 2, win1_2.index t a * S10000x16.size a ≤ (i a).val ∧ (i a).val < win1_2.index t a * S10000x16.size a + S10000x16.size a := by
  show i ∈ ((View.whole main_v18).slice (win1_2.rect t)).set ↔ _
  rw [View.set_slice_whole, Rect.mem_set_unit]
  exact Iff.rfl

/-- Row r of the result lies in the block of point r / 10000, and every point writes its block back. -/
theorem cover (i : S100000x16.Idx) : ∃ t : Fin cfg1.N, (cfg1.win 2).flush t = true ∧ i ∈ ((cfg1.win 2).blk t).view.set := by
  have hi0 : (i 0).val < 100000 := (i 0).isLt
  have hi1 : (i 1).val < 16 := (i 1).isLt
  have hN : cfg1.N = 10 := N_1
  obtain ⟨t, htv⟩ : ∃ t : Fin cfg1.N, t.val = (i 0).val / 10000 := ⟨⟨(i 0).val / 10000, by rw [hN]; omega⟩, rfl⟩
  obtain ⟨-, -, -, -, e4, e5⟩ := index_facts t
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; rw [e4]; omega
  | ⟨1, _⟩ => show win1_2.index t (1 : Fin 2) * 16 ≤ (i 1).val ∧ (i 1).val < win1_2.index t (1 : Fin 2) * 16 + 16; rw [e5]; omega

/-- The result array after the region: the product of `max(A, 0)` with the weights, over the arrays as the region
    finds them. -/
theorem final (c : Dev nD) : (dat1 V c).arrAt 2 cfg1.N = product (Network.relu (F := Ideal) (V c main_v17)) (V c main_arg6) :=
  (dat1 V c).arrAt_eq_of_cover 2 _ (fun t _ => flushed_eq V c t) cover

end Cert.KernelIdeal.SecondLayer

end
-- ==== Proof.KernelRun.lean ====
/-
  The idealized kernel program's run, read as a value.

  @main is four segments: the first pallas_call, a stretch of host operations (one layer's gather, scaling and
  scatter-add), the second pallas_call, and a second such stretch. The contents of every buffer at each boundary are a
  fold through these segments from the launch memory. Here the run is stated with EVERY unscoped buffer named at the
  last boundary's contents, and the result buffer is then read back through the fold: the second stretch applied to
  what the second pallas_call left, which is `max(A, 0) · W2` of the array A the first stretch left, which is the
  first stretch applied to what the first pallas_call left, `x · W1`. No segment writes an argument, so every argument
  is read at its launch contents. The outcome is the network's function of the seven arguments.
-/
import proofs.«110216_j90993177133180_2_alg».proof.Proof.Gen.KernelIdeal.Frame
import proofs.«110216_j90993177133180_2_alg».proof.Proof.FirstLayer
import proofs.«110216_j90993177133180_2_alg».proof.Proof.SecondLayer
import proofs.«110216_j90993177133180_2_alg».proof.Proof.Network
import Idealize.ShloMosaic.Lib.StableHlo.Run

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

section AnyReading

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, and every unscoped buffer of every core ends at
    the contents the fold through the four segments gives it. -/
theorem run_buffers : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

end AnyReading

/-! ## The result buffer, read back through the fold (at the exact reading of floats) -/

variable (m : (ℓ : Loc nD τ sig) → Buf (Elt Ideal) ℓ) (ρ : Dev nD → PrngReg)

/-- The buffers the first pallas_call does not write keep their launch contents across it. -/
theorem W1_main_arg1 (c : Dev nD) : W1 m ρ c (Proc.devRef .tc main_arg1) = m ((c : Thread nD τ).loc main_arg1) :=
  W1_of_ne m ρ c main_arg1 (by decide)
theorem W1_main_arg2 (c : Dev nD) : W1 m ρ c (Proc.devRef .tc main_arg2) = m ((c : Thread nD τ).loc main_arg2) :=
  W1_of_ne m ρ c main_arg2 (by decide)
theorem W1_main_arg3 (c : Dev nD) : W1 m ρ c (Proc.devRef .tc main_arg3) = m ((c : Thread nD τ).loc main_arg3) :=
  W1_of_ne m ρ c main_arg3 (by decide)
theorem W1_main_arg4 (c : Dev nD) : W1 m ρ c (Proc.devRef .tc main_arg4) = m ((c : Thread nD τ).loc main_arg4) :=
  W1_of_ne m ρ c main_arg4 (by decide)
theorem W1_main_arg6 (c : Dev nD) : W1 m ρ c (Proc.devRef .tc main_arg6) = m ((c : Thread nD τ).loc main_arg6) :=
  W1_of_ne m ρ c main_arg6 (by decide)

/-- The first pallas_call leaves the whole product `x · W1` in its result buffer. -/
theorem W1_main_v0 (c : Dev nD) : W1 m ρ c (Proc.devRef .tc main_v0)
    = FirstLayer.product (m ((c : Thread nD τ).loc main_arg0)) (m ((c : Thread nD τ).loc main_arg5)) :=
  (W1_arr m ρ c 2).trans (FirstLayer.final (V0 m ρ) c)

/-- The first stretch of host operations leaves the hidden features, and writes no argument. -/
theorem W2_main_v17 (c : Dev nD) : W2 m ρ c (Proc.devRef .tc main_v17)
    = Network.hidden (F := Ideal) (m ((c : Thread nD τ).loc main_arg0)) (m ((c : Thread nD τ).loc main_arg1)) (m ((c : Thread nD τ).loc main_arg3)) (m ((c : Thread nD τ).loc main_arg5)) := by
  have h0 := W1_main_v0 m ρ c
  have h1 := W1_main_arg1 m ρ c
  have h3 := W1_main_arg3 m ρ c
  show StableHlo.after hostOps1 (W1 m ρ c) (Proc.devRef .tc main_v17) = _
  generalize W1 m ρ c = X at h0 h1 h3 ⊢
  after_results
  rw [h0, h1, h3]
  rfl
theorem W2_main_arg2 (c : Dev nD) : W2 m ρ c (Proc.devRef .tc main_arg2) = m ((c : Thread nD τ).loc main_arg2) := by
  have h := W1_main_arg2 m ρ c
  show StableHlo.after hostOps1 (W1 m ρ c) (Proc.devRef .tc main_arg2) = _
  generalize W1 m ρ c = X at h ⊢
  after_results
  exact h
theorem W2_main_arg4 (c : Dev nD) : W2 m ρ c (Proc.devRef .tc main_arg4) = m ((c : Thread nD τ).loc main_arg4) := by
  have h := W1_main_arg4 m ρ c
  show StableHlo.after hostOps1 (W1 m ρ c) (Proc.devRef .tc main_arg4) = _
  generalize W1 m ρ c = X at h ⊢
  after_results
  exact h
theorem W2_main_arg6 (c : Dev nD) : W2 m ρ c (Proc.devRef .tc main_arg6) = m ((c : Thread nD τ).loc main_arg6) := by
  have h := W1_main_arg6 m ρ c
  show StableHlo.after hostOps1 (W1 m ρ c) (Proc.devRef .tc main_arg6) = _
  generalize W1 m ρ c = X at h ⊢
  after_results
  exact h

/-- The second pallas_call leaves `max(hidden, 0) · W2` in its result buffer, and the edge data as they were. -/
theorem W3_main_v18 (c : Dev nD) : W3 m ρ c (Proc.devRef .tc main_v18)
    = SecondLayer.product (Network.relu (F := Ideal) (Network.hidden (F := Ideal) (m ((c : Thread nD τ).loc main_arg0)) (m ((c : Thread nD τ).loc main_arg1)) (m ((c : Thread nD τ).loc main_arg3)) (m ((c : Thread nD τ).loc main_arg5)))) (m ((c : Thread nD τ).loc main_arg6)) := by
  refine ((W3_arr m ρ c 2).trans (SecondLayer.final (V2 m ρ) c)).trans ?_
  show SecondLayer.product (Network.relu (F := Ideal) (W2 m ρ c (Proc.devRef .tc main_v17))) (W2 m ρ c (Proc.devRef .tc main_arg6)) = _
  rw [W2_main_v17 m ρ c, W2_main_arg6 m ρ c]
theorem W3_main_arg2 (c : Dev nD) : W3 m ρ c (Proc.devRef .tc main_arg2) = m ((c : Thread nD τ).loc main_arg2) :=
  (W3_of_ne m ρ c main_arg2 (by decide)).trans (W2_main_arg2 m ρ c)
theorem W3_main_arg4 (c : Dev nD) : W3 m ρ c (Proc.devRef .tc main_arg4) = m ((c : Thread nD τ).loc main_arg4) :=
  (W3_of_ne m ρ c main_arg4 (by decide)).trans (W2_main_arg4 m ρ c)

/-- The result buffer at the last boundary: the network's function of the seven arguments. -/
theorem W4_main_v35 (c : Dev nD) : W4 m ρ c (Proc.devRef .tc main_v35)
    = Network.network (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have h0 := W3_main_v18 m ρ c
  have h2 := W3_main_arg2 m ρ c
  have h4 := W3_main_arg4 m ρ c
  show StableHlo.after hostOps2 (W3 m ρ c) (Proc.devRef .tc main_v35) = _
  generalize W3 m ρ c = X at h0 h2 h4 ⊢
  after_results
  rw [h0, h2, h4]
  rfl

/-- The run, read: the result buffer ends at the network's function of the arguments' launch contents, and the
    arguments end as launched. -/
theorem run : θ_run defs (onTc (τ := τ) (main (F := Ideal))) ⟨m, fun _ => 0, ρ⟩ (fun r => ∀ c : Dev nD,
      r.2.mem ((c.tc : Thread nD τ).loc main_v35) = Network.network (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v35 (by decide))).trans (W4_main_v35 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c)⟩)
    (run_buffers m ρ)

end Cert.KernelIdeal.Whole

end
-- ==== Proof.RefSide.lean ====
/-
  The reference program computes the same function. Its @main is forty-five host operations: the whole product
  `x · W1`, the first layer's gather, scaling and scatter-add, the maximum with zero, the whole product with `W2`, and
  the second layer's gather, scaling and scatter-add. Composed, they are the network's function of the seven arguments,
  term for term: the dimension records of the two products, gathers and scatter-adds carry the same numbers in both
  programs, and the shapes are the same.
-/
import proofs.«110216_j90993177133180_2_alg».proof.Proof.Gen.ReferenceIdeal.Run
import proofs.«110216_j90993177133180_2_alg».proof.Proof.Network

noncomputable section

namespace Cert.ReferenceIdeal.RefValue

open Idealize.ShloMosaic Cert.ReferenceIdeal Cert.ReferenceIdeal.Gen

variable {F : FTy → Type} [FloatOps F]

/-- The composed term of the reference's operations is the network's function of the arguments. -/
theorem result_eq (a0 : (⟨S100000x128, .f32⟩ : BufTy).Contents (Elt F)) (a1 a2 : (⟨S2x1600000, .i32⟩ : BufTy).Contents (Elt F))
    (a3 a4 : (⟨S1600000, .f32⟩ : BufTy).Contents (Elt F)) (a5 : (⟨S128x64, .f32⟩ : BufTy).Contents (Elt F))
    (a6 : (⟨S64x16, .f32⟩ : BufTy).Contents (Elt F)) :
    Host.scatterAdd scatter_S100000x16_S1600000x1_S1600000x16_1_0_0_1 (broadcastInDim S100000x16 ![] bcast_S_S100000x16 (constant S_ .f32 0x00000000#32)) (broadcastInDim S1600000x1 ![0] bcast_S1600000_S1600000x1_0 (shapeCast _ (extractStridedSlice S1x1600000 ![1, 0] a2 slices_S2x1600000_S1x1600000_1_0) shapeCasts_S1x1600000_S1600000)) (mulf (Host.gather gather_S100000x16_S1600000x1_S1600000x16_1_0_n_n_0_1_116 (Host.dotGeneral dot_S100000x64_S64x16_S100000x16_1_0_0_1_n_n none (maximumf (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (shapeCast _ (extractStridedSlice S1x1600000 ![1, 0] a1 slices_S2x1600000_S1x1600000_1_0) shapeCasts_S1x1600000_S1600000)) (mulf (Host.gather gather_S100000x64_S1600000x1_S1600000x64_1_0_n_n_0_1_164 (Host.dotGeneral dot_S100000x128_S128x64_S100000x64_1_0_0_1_n_n none a0 a5) (broadcastInDim S1600000x1 ![0] bcast_S1600000_S1600000x1_0 (select (cmpi .slt (shapeCast _ (extractStridedSlice S1x1600000 ![0, 0] a1 slices_S2x1600000_S1x1600000_0_0) shapeCasts_S1x1600000_S1600000) (broadcastInDim S1600000 ![] bcast_S_S1600000 (constantI S_ 32 0#32))) (addi (shapeCast _ (extractStridedSlice S1x1600000 ![0, 0] a1 slices_S2x1600000_S1x1600000_0_0) shapeCasts_S1x1600000_S1600000) (broadcastInDim S1600000 ![] bcast_S_S1600000 (constantI S_ 32 100000#32))) (shapeCast _ (extractStridedSlice S1x1600000 ![0, 0] a1 slices_S2x1600000_S1x1600000_0_0) shapeCasts_S1x1600000_S1600000)))) (broadcastInDim S1600000x64 ![0, 1] bcast_S1600000x1_S1600000x64_0_1 (broadcastInDim S1600000x1 ![0] bcast_S1600000_S1600000x1_0 a3)))) (broadcastInDim S100000x64 ![] bcast_S_S100000x64 (constant S_ .f32 0x00000000#32))) a6) (broadcastInDim S1600000x1 ![0] bcast_S1600000_S1600000x1_0 (select (cmpi .slt (shapeCast _ (extractStridedSlice S1x1600000 ![0, 0] a2 slices_S2x1600000_S1x1600000_0_0) shapeCasts_S1x1600000_S1600000) (broadcastInDim S1600000 ![] bcast_S_S1600000 (constantI S_ 32 0#32))) (addi (shapeCast _ (extractStridedSlice S1x1600000 ![0, 0] a2 slices_S2x1600000_S1x1600000_0_0) shapeCasts_S1x1600000_S1600000) (broadcastInDim S1600000 ![] bcast_S_S1600000 (constantI S_ 32 100000#32))) (shapeCast _ (extractStridedSlice S1x1600000 ![0, 0] a2 slices_S2x1600000_S1x1600000_0_0) shapeCasts_S1x1600000_S1600000)))) (broadcastInDim S1600000x16 ![0, 1] bcast_S1600000x1_S1600000x16_0_1 (broadcastInDim S1600000x1 ![0] bcast_S1600000_S1600000x1_0 a4)))
      = Cert.KernelIdeal.Network.network a0 a1 a2 a3 a4 a5 a6 := rfl

end Cert.ReferenceIdeal.RefValue

end
-- ==== Proof.lean ====
/-
  A two-layer graph convolution on 100000 nodes and 1600000 weighted edges per layer: the kernel program against its
  plain reference, equal as extended reals.

  Both programs compute
      out = agg₂( max(agg₁(x · W1), 0) · W2 ),
  where aggᵢ gathers, for every edge of layer i, the source node's feature row, scales it by the edge's weight and
  adds it into the destination node's row of a zero array. The reference does all of it on the host. The kernel
  program computes the two matrix products in two pallas_calls, each a grid of ten points over blocks of 10000 rows
  with the small weight matrix staged whole, the second taking the maximum with zero inside its body; the gathers and
  scatter-adds stay host operations between and after the calls, the same operations as the reference's.

  The bridge: a block of rows of a matrix product accumulated into zero is the same rows of the whole product (the
  sum over the contracted coordinate, entry by entry), and the maximum with zero acts entry by entry, so each
  pallas_call leaves the whole-array product the reference states (Proof/FirstLayer.lean, Proof/SecondLayer.lean over
  Proof/LibRowBlockProduct.lean). Read through the program's four segments (Proof/KernelRun.lean) the result buffer
  ends at one function of the seven arguments (Proof/Network.lean), which is the reference's composed term
  (Proof/RefSide.lean). No law used needs the inputs finite — only a sum re-read in the same order — so the
  precondition is never opened. The ideal pass rewrote nothing, so `preserves` asks nothing.
-/
import proofs.«110216_j90993177133180_2_alg».proof.Defs
import proofs.«110216_j90993177133180_2_alg».proof.Proof.Gen.Kernel
import proofs.«110216_j90993177133180_2_alg».proof.Proof.Gen.Kernel.Frame
import proofs.«110216_j90993177133180_2_alg».proof.Proof.Gen.KernelIdeal
import proofs.«110216_j90993177133180_2_alg».proof.Proof.Gen.KernelIdeal.Frame
import proofs.«110216_j90993177133180_2_alg».proof.Proof.Gen.ReferenceIdeal
import proofs.«110216_j90993177133180_2_alg».proof.Proof.Gen.Pre_finite_inputs
import proofs.«110216_j90993177133180_2_alg».proof.Proof.Gen.ReferenceIdeal.Run
import proofs.«110216_j90993177133180_2_alg».proof.Proof.KernelRun
import proofs.«110216_j90993177133180_2_alg».proof.Proof.RefSide
import Idealize.ShloMosaic.Adequacy
import Idealize.ShloMosaic.Init

noncomputable section

namespace Cert.Proof

open Idealize.ShloMosaic Idealize.ShloMosaic.TcCoe Idealize.SL.Sem

/-- The word-level kernel program runs, faults nowhere and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the network's function of those arguments in
    their result buffers. -/
theorem algebraic : Cert.algebraic_KernelIdeal_ReferenceIdeal := by
  intro m ρ m' ρ' _ hagree
  refine ⟨fun c => Cert.KernelIdeal.Network.network (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6⟩ := hagree c
  refine (Cert.ReferenceIdeal.RefValue.result_eq (F := Ideal) _ _ _ _ _ _ _).trans ?_
  rw [e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
